-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x128 : Shape := ⟨2, ![512, 128]⟩
abbrev S128 : Shape := ⟨1, ![128]⟩
abbrev S128x128 : Shape := ⟨2, ![128, 128]⟩
abbrev S2x640000 : Shape := ⟨2, ![2, 640000]⟩
abbrev S50000 : Shape := ⟨1, ![50000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x512 .f32) (main_arg1 : FVec F S512x128 .f32) (main_arg2 : FVec F S128 .f32) (main_arg3 : FVec F S128x128 .f32) (main_arg4 : FVec F S128 .f32) (main_arg5 : IVec S2x640000 32) (main_arg6 : IVec S50000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S50000x512 : Shape := ⟨2, ![50000, 512]⟩
abbrev S512x128 : Shape := ⟨2, ![512, 128]⟩
abbrev S128 : Shape := ⟨1, ![128]⟩
abbrev S128x128 : Shape := ⟨2, ![128, 128]⟩
abbrev S2x640000 : Shape := ⟨2, ![2, 640000]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S50000x128 : Shape := ⟨2, ![50000, 128]⟩
abbrev S5000x512 : Shape := ⟨2, ![5000, 512]⟩
abbrev S5000x128 : Shape := ⟨2, ![5000, 128]⟩
abbrev S690000x128 : Shape := ⟨2, ![690000, 128]⟩
abbrev S1x128 : Shape := ⟨2, ![1, 128]⟩
abbrev S256x128 : Shape := ⟨2, ![256, 128]⟩
abbrev S50000x1 : Shape := ⟨2, ![50000, 1]⟩

abbrev nBuf : Space → Nat
  | .hbm => 94
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x640000, .i32⟩
  | .hbm, ⟨6, _⟩ => ⟨S50000, .i32⟩
  | .hbm, ⟨7, _⟩ => ⟨S50000, .i32⟩
  | .hbm, ⟨8, _⟩ => ⟨S1x640000, .i32⟩
  | .hbm, ⟨9, _⟩ => ⟨S640000, .i32⟩
  | .hbm, ⟨10, _⟩ => ⟨S690000, .i32⟩
  | .hbm, ⟨11, _⟩ => ⟨S1x640000, .i32⟩
  | .hbm, ⟨12, _⟩ => ⟨S640000, .i32⟩
  | .hbm, ⟨13, _⟩ => ⟨S690000, .i32⟩
  | .hbm, ⟨14, _⟩ => ⟨S_, .f32⟩
  | .hbm, ⟨15, _⟩ => ⟨S690000, .f32⟩
  | .hbm, ⟨16, _⟩ => ⟨S_, .f32⟩
  | .hbm, ⟨17, _⟩ => ⟨S50000, .f32⟩
  | .hbm, ⟨18, _⟩ => ⟨S690000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S690000, .i32⟩
  | .hbm, ⟨30, _⟩ => ⟨S690000, .i1⟩
  | .hbm, ⟨31, _⟩ => ⟨S_, .i32⟩
  | .hbm, ⟨32, _⟩ => ⟨S690000, .i32⟩
  | .hbm, ⟨33, _⟩ => ⟨S690000, .i32⟩
  | .hbm, ⟨34, _⟩ => ⟨S690000, .i32⟩
  | .hbm, ⟨35, _⟩ => ⟨S690000x1, .i32⟩
  | .hbm, ⟨36, _⟩ => ⟨S690000, .f32⟩
  | .hbm, ⟨37, _⟩ => ⟨S_, .i32⟩
  | .hbm, ⟨38, _⟩ => ⟨S690000, .i32⟩
  | .hbm, ⟨39, _⟩ => ⟨S690000, .i1⟩
  | .hbm, ⟨40, _⟩ => ⟨S_, .i32⟩
  | .hbm, ⟨41, _⟩ => ⟨S690000, .i32⟩
  | .hbm, ⟨42, _⟩ => ⟨S690000, .i32⟩
  | .hbm, ⟨43, _⟩ => ⟨S690000, .i32⟩
  | .hbm, ⟨44, _⟩ => ⟨S690000x1, .i32⟩
  | .hbm, ⟨45, _⟩ => ⟨S690000, .f32⟩
  | .hbm, ⟨46, _⟩ => ⟨S690000, .f32⟩
  | .hbm, ⟨47, _⟩ => ⟨S50000x128, .f32⟩
  | .hbm, ⟨48, _⟩ => ⟨S_, .i32⟩
  | .hbm, ⟨49, _⟩ => ⟨S690000, .i32⟩
  | .hbm, ⟨50, _⟩ => ⟨S690000, .i1⟩
  | .hbm, ⟨51, _⟩ => ⟨S_, .i32⟩
  | .hbm, ⟨52, _⟩ => ⟨S690000, .i32⟩
  | .hbm, ⟨53, _⟩ => ⟨S690000, .i32⟩
  | .hbm, ⟨54, _⟩ => ⟨S690000, .i32⟩
  | .hbm, ⟨55, _⟩ => ⟨S690000x1, .i32⟩
  | .hbm, ⟨56, _⟩ => ⟨S690000x128, .f32⟩
  | .hbm, ⟨57, _⟩ => ⟨S690000x1, .f32⟩
  | .hbm, ⟨58, _⟩ => ⟨S690000x128, .f32⟩
  | .hbm, ⟨59, _⟩ => ⟨S690000x128, .f32⟩
  | .hbm, ⟨60, _⟩ => ⟨S_, .f32⟩
  | .hbm, ⟨61, _⟩ => ⟨S50000x128, .f32⟩
  | .hbm, ⟨62, _⟩ => ⟨S690000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S690000, .i32⟩
  | .hbm, ⟨73, _⟩ => ⟨S690000, .i1⟩
  | .hbm, ⟨74, _⟩ => ⟨S_, .i32⟩
  | .hbm, ⟨75, _⟩ => ⟨S690000, .i32⟩
  | .hbm, ⟨76, _⟩ => ⟨S690000, .i32⟩
  | .hbm, ⟨77, _⟩ => ⟨S690000, .i32⟩
  | .hbm, ⟨78, _⟩ => ⟨S690000x1, .i32⟩
  | .hbm, ⟨79, _⟩ => ⟨S690000x128, .f32⟩
  | .hbm, ⟨80, _⟩ => ⟨S690000x1, .f32⟩
  | .hbm, ⟨81, _⟩ => ⟨S690000x128, .f32⟩
  | .hbm, ⟨82, _⟩ => ⟨S690000x128, .f32⟩
  | .hbm, ⟨83, _⟩ => ⟨S_, .f32⟩
  | .hbm, ⟨84, _⟩ => ⟨S50000x128, .f32⟩
  | .hbm, ⟨85, _⟩ => ⟨S690000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S256x128, .f32⟩
  | .hbm, ⟨92, _⟩ => ⟨S50000x1, .i32⟩
  | .hbm, ⟨93, _⟩ => ⟨S256x128, .f32⟩
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S5000x128_S5000x128_0_0 : ∀ a, (![0, 0] : Fin 2 → Nat) a + S5000x128.size a ≤ S5000x128.size a
  h_S5000x128 : 0 < S5000x128.numel
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S256x128 : S_.BroadcastsInDim S256x128 (![] : Fin 0 → Fin S256x128.rank)
  bcast_S50000_S50000x1_0 : S50000.BroadcastsInDim S50000x1 (![0] : Fin 1 → Fin S50000x1.rank)
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S5000x512_S512x128_S5000x128_1_0_0_1_n_n_wf : DotDims.WF S5000x512 S512x128 S5000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S5000x128_S128x128_S5000x128_1_0_0_1_n_n_wf : DotDims.WF S5000x128 S128x128 S5000x128 [1] [0] [0] [1] [] []
  scatter_S256x128_S50000x1_S50000x128_1_0_0_1_wf : ScatterDims.WF S256x128 S50000x1 S50000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S512x128 : Shape := ⟨2, ![512, 128]⟩
abbrev S128 : Shape := ⟨1, ![128]⟩
abbrev S128x128 : Shape := ⟨2, ![128, 128]⟩
abbrev S2x640000 : Shape := ⟨2, ![2, 640000]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S50000x128 : Shape := ⟨2, ![50000, 128]⟩
abbrev S690000x128 : Shape := ⟨2, ![690000, 128]⟩
abbrev S1x128 : Shape := ⟨2, ![1, 128]⟩
abbrev S256x128 : Shape := ⟨2, ![256, 128]⟩
abbrev S50000x1 : Shape := ⟨2, ![50000, 1]⟩

abbrev nBuf : Space → Nat
  | .hbm => 94
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x640000, .i32⟩
  | .hbm, ⟨6, _⟩ => ⟨S50000, .i32⟩
  | .hbm, ⟨7, _⟩ => ⟨S50000, .i32⟩
  | .hbm, ⟨8, _⟩ => ⟨S1x640000, .i32⟩
  | .hbm, ⟨9, _⟩ => ⟨S640000, .i32⟩
  | .hbm, ⟨10, _⟩ => ⟨S690000, .i32⟩
  | .hbm, ⟨11, _⟩ => ⟨S1x640000, .i32⟩
  | .hbm, ⟨12, _⟩ => ⟨S640000, .i32⟩
  | .hbm, ⟨13, _⟩ => ⟨S690000, .i32⟩
  | .hbm, ⟨14, _⟩ => ⟨S_, .f32⟩
  | .hbm, ⟨15, _⟩ => ⟨S690000, .f32⟩
  | .hbm, ⟨16, _⟩ => ⟨S_, .f32⟩
  | .hbm, ⟨17, _⟩ => ⟨S50000, .f32⟩
  | .hbm, ⟨18, _⟩ => ⟨S690000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S690000, .i32⟩
  | .hbm, ⟨30, _⟩ => ⟨S690000, .i1⟩
  | .hbm, ⟨31, _⟩ => ⟨S_, .i32⟩
  | .hbm, ⟨32, _⟩ => ⟨S690000, .i32⟩
  | .hbm, ⟨33, _⟩ => ⟨S690000, .i32⟩
  | .hbm, ⟨34, _⟩ => ⟨S690000, .i32⟩
  | .hbm, ⟨35, _⟩ => ⟨S690000x1, .i32⟩
  | .hbm, ⟨36, _⟩ => ⟨S690000, .f32⟩
  | .hbm, ⟨37, _⟩ => ⟨S_, .i32⟩
  | .hbm, ⟨38, _⟩ => ⟨S690000, .i32⟩
  | .hbm, ⟨39, _⟩ => ⟨S690000, .i1⟩
  | .hbm, ⟨40, _⟩ => ⟨S_, .i32⟩
  | .hbm, ⟨41, _⟩ => ⟨S690000, .i32⟩
  | .hbm, ⟨42, _⟩ => ⟨S690000, .i32⟩
  | .hbm, ⟨43, _⟩ => ⟨S690000, .i32⟩
  | .hbm, ⟨44, _⟩ => ⟨S690000x1, .i32⟩
  | .hbm, ⟨45, _⟩ => ⟨S690000, .f32⟩
  | .hbm, ⟨46, _⟩ => ⟨S690000, .f32⟩
  | .hbm, ⟨47, _⟩ => ⟨S50000x128, .f32⟩
  | .hbm, ⟨48, _⟩ => ⟨S_, .i32⟩
  | .hbm, ⟨49, _⟩ => ⟨S690000, .i32⟩
  | .hbm, ⟨50, _⟩ => ⟨S690000, .i1⟩
  | .hbm, ⟨51, _⟩ => ⟨S_, .i32⟩
  | .hbm, ⟨52, _⟩ => ⟨S690000, .i32⟩
  | .hbm, ⟨53, _⟩ => ⟨S690000, .i32⟩
  | .hbm, ⟨54, _⟩ => ⟨S690000, .i32⟩
  | .hbm, ⟨55, _⟩ => ⟨S690000x1, .i32⟩
  | .hbm, ⟨56, _⟩ => ⟨S690000x128, .f32⟩
  | .hbm, ⟨57, _⟩ => ⟨S690000x1, .f32⟩
  | .hbm, ⟨58, _⟩ => ⟨S690000x128, .f32⟩
  | .hbm, ⟨59, _⟩ => ⟨S690000x128, .f32⟩
  | .hbm, ⟨60, _⟩ => ⟨S_, .f32⟩
  | .hbm, ⟨61, _⟩ => ⟨S50000x128, .f32⟩
  | .hbm, ⟨62, _⟩ => ⟨S690000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S690000, .i32⟩
  | .hbm, ⟨73, _⟩ => ⟨S690000, .i1⟩
  | .hbm, ⟨74, _⟩ => ⟨S_, .i32⟩
  | .hbm, ⟨75, _⟩ => ⟨S690000, .i32⟩
  | .hbm, ⟨76, _⟩ => ⟨S690000, .i32⟩
  | .hbm, ⟨77, _⟩ => ⟨S690000, .i32⟩
  | .hbm, ⟨78, _⟩ => ⟨S690000x1, .i32⟩
  | .hbm, ⟨79, _⟩ => ⟨S690000x128, .f32⟩
  | .hbm, ⟨80, _⟩ => ⟨S690000x1, .f32⟩
  | .hbm, ⟨81, _⟩ => ⟨S690000x128, .f32⟩
  | .hbm, ⟨82, _⟩ => ⟨S690000x128, .f32⟩
  | .hbm, ⟨83, _⟩ => ⟨S_, .f32⟩
  | .hbm, ⟨84, _⟩ => ⟨S50000x128, .f32⟩
  | .hbm, ⟨85, _⟩ => ⟨S690000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S256x128, .f32⟩
  | .hbm, ⟨92, _⟩ => ⟨S50000x1, .i32⟩
  | .hbm, ⟨93, _⟩ => ⟨S256x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256x128 : S_.BroadcastsInDim S256x128 (![] : Fin 0 → Fin S256x128.rank)
  bcast_S50000_S50000x1_0 : S50000.BroadcastsInDim S50000x1 (![0] : Fin 1 → Fin S50000x1.rank)
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S50000x512_S512x128_S50000x128_1_0_0_1_n_n_wf : DotDims.WF S50000x512 S512x128 S50000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S50000x128_S128x128_S50000x128_1_0_0_1_n_n_wf : DotDims.WF S50000x128 S128x128 S50000x128 [1] [0] [0] [1] [] []
  scatter_S256x128_S50000x1_S50000x128_1_0_0_1_wf : ScatterDims.WF S256x128 S50000x1 S50000x128 [1] [0] [0] 1

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf

class Facts : Prop extends Facts₀ where

variable [Facts]
-- ==== Proof.NamedRun.lean ====
/-
  The kernel program's run with its two results NAMED.

  The program is eight segments: three stretches of host operations, the first matrix-product region, two
  stretches, the second matrix-product region, and a last stretch. The buffer contents at every segment
  boundary are a fold from the launch memory (`Gen.W0` … `Gen.W8`): a stretch applies its operations in
  order, a region leaves each of its arrays at what its write-backs leave and every other buffer as it was.
  After the last segment the thread holds every unscoped buffer at the last boundary's contents `Gen.W8`,
  so reading the final state against it gives each result buffer — the per-node features `main_v64` and the
  pooled features `main_v67` — at `Gen.W8`, beside the argument arrays as launched. What `Gen.W8` holds at
  those two buffers, as a function of the arguments, is the business of the modules that import this one.
-/
import proofs.«124221_j29111288332558_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the pooled features and the
    per-node features at the last boundary's contents and every argument array as launched. -/
theorem run : θ_run defs (onTc (τ := τ) (main (F := F))) ⟨m, fun _ => 0, ρ⟩ (fun r => ∀ c : Dev nD,
      r.2.mem ((c.tc : Thread nD τ).loc main_v67) = W8 m ρ c (Proc.devRef .tc main_v67)
      ∧ r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v67 (by decide)),
       h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Named

end
-- ==== Proof.Spec.lean ====
/-
  What the network computes, as a function of its argument arrays.

  Two graph-convolution layers and a pooling. The graph has 50000 nodes and 640000 directed edges; each layer
  adds one self-loop per node, so it works over 690000 CONNECTIONS: connection `e` goes from node `src e` to
  node `dst e` (the edge list's two rows, each followed by the nodes in order). A node's degree counts the
  connections that END at it, `dinv` is the reciprocal square root of the degree (zero where the degree is not
  positive), and a connection's weight is `dinv (src e) · dinv (dst e)`.

  One layer, on node features `H` with bias `b`: every connection carries its source's feature row times its
  weight, every node sums what arrives, and the bias is added: `layer E H b` (`layerOf`, `weightOf`, `dinvOf` and
  `degOf` are the same functions of the connections' source, target and weight arrays, whatever graph they come
  from). The network is

      nodes  = layer E (relu (layer E (x · W1) b1) · W2) b2
      pooled = for each graph, the sum of `nodes` over the nodes `batch` assigns to it

  with `·` the matrix product. Everything here is the host's own operations applied in the reference's order, at
  any float instance: the two sides of the certificate differ ONLY in how the two matrix products are made, so
  the rest is carried as these functions and never opened.
-/
import proofs.«124221_j29111288332558_2_alg».proof.ReferenceIdeal

noncomputable section

namespace Cert.Spec

open Cert.ReferenceIdeal Idealize.ShloMosaic

variable {F : FTy → Type} [FloatOps F] [Cert.ReferenceIdeal.Facts]
open Cert.ReferenceIdeal.Facts₀ Cert.ReferenceIdeal.Facts

/-- The source node of each connection: row 0 of the edge list, then every node once (its self-loop). -/
def src (E : (⟨S2x640000, .i32⟩ : BufTy).Contents (Elt F)) : (⟨S690000, .i32⟩ : BufTy).Contents (Elt F) :=
  concatenate S690000 0 [⟨S640000, (shapeCast _ (extractStridedSlice S1x640000 ![0, 0] E slices_S2x640000_S1x640000_0_0) shapeCasts_S1x640000_S640000)⟩, ⟨S50000, (iotaInDim S50000 32 0)⟩] concatenates_S640000_S50000_S690000_d0

/-- The target node of each connection: row 1 of the edge list, then every node once. -/
def dst (E : (⟨S2x640000, .i32⟩ : BufTy).Contents (Elt F)) : (⟨S690000, .i32⟩ : BufTy).Contents (Elt F) :=
  concatenate S690000 0 [⟨S640000, (shapeCast _ (extractStridedSlice S1x640000 ![1, 0] E slices_S2x640000_S1x640000_1_0) shapeCasts_S1x640000_S640000)⟩, ⟨S50000, (iotaInDim S50000 32 0)⟩] concatenates_S640000_S50000_S690000_d0

/-- A node number as an index into an axis of 50000 places: a negative one counts from the end (jax's indexing),
    laid out as the one-column index array a gather takes. -/
def asIndex (i : (⟨S690000, .i32⟩ : BufTy).Contents (Elt F)) : (⟨S690000x1, .i32⟩ : BufTy).Contents (Elt F) :=
  broadcastInDim S690000x1 ![0] bcast_S690000_S690000x1_0 (select (cmpi .slt i (broadcastInDim S690000 ![] bcast_S_S690000 (constantI S_ 32 0#32))) (addi i (broadcastInDim S690000 ![] bcast_S_S690000 (constantI S_ 32 50000#32))) i)

/-- Each node's degree: the number of connections ending at it (a one per connection, summed at its target `d`). -/
def degOf (d : (⟨S690000, .i32⟩ : BufTy).Contents (Elt F)) : (⟨S50000, .f32⟩ : BufTy).Contents (Elt F) :=
  Host.scatterAdd scatter_S50000_S690000x1_S690000_n_0_0_1 (broadcastInDim S50000 ![] bcast_S_S50000 (constant S_ .f32 0x00000000#32)) (broadcastInDim S690000x1 ![0] bcast_S690000_S690000x1_0 d) (broadcastInDim S690000 ![] bcast_S_S690000 (constant S_ .f32 0x3F800000#32))

/-- The reciprocal square root of the degree where it is positive, zero elsewhere. -/
def dinvOf (d : (⟨S690000, .i32⟩ : BufTy).Contents (Elt F)) : (⟨S50000, .f32⟩ : BufTy).Contents (Elt F) :=
  select (cmpf (F := F) .ogt (degOf d) (broadcastInDim S50000 ![] bcast_S_S50000 (constant S_ .f32 0x00000000#32))) (Host.rsqrt (degOf d)) (broadcastInDim S50000 ![] bcast_S_S50000 (id (constant S_ .f32 0x00000000#32)))

/-- A connection's weight: `dinv` at its source `s` times `dinv` at its target `d`. -/
def weightOf (s d : (⟨S690000, .i32⟩ : BufTy).Contents (Elt F)) : (⟨S690000, .f32⟩ : BufTy).Contents (Elt F) :=
  mulf (Host.gather gather_S50000_S690000x1_S690000_n_0_n_n_0_1_1 (dinvOf d) (asIndex s)) (Host.gather gather_S50000_S690000x1_S690000_n_0_n_n_0_1_1 (dinvOf d) (asIndex d))

/-- One layer's aggregation over connections with sources `s`, targets `d` and weights `w`: each connection
    carries its source's row of `H` times its weight, each node sums what arrives at it, and the bias row `b` is
    added to every node. -/
def layerOf (s d : (⟨S690000, .i32⟩ : BufTy).Contents (Elt F)) (w : (⟨S690000, .f32⟩ : BufTy).Contents (Elt F))
    (H : (⟨S50000x128, .f32⟩ : BufTy).Contents (Elt F)) (b : (⟨S128, .f32⟩ : BufTy).Contents (Elt F)) : (⟨S50000x128, .f32⟩ : BufTy).Contents (Elt F) :=
  addf (Host.scatterAdd scatter_S50000x128_S690000x1_S690000x128_1_0_0_1 (broadcastInDim S50000x128 ![] bcast_S_S50000x128 (constant S_ .f32 0x00000000#32)) (broadcastInDim S690000x1 ![0] bcast_S690000_S690000x1_0 d) (mulf (Host.gather gather_S50000x128_S690000x1_S690000x128_1_0_n_n_0_1_1128 H (asIndex s)) (broadcastInDim S690000x128 ![0, 1] bcast_S690000x1_S690000x128_0_1 (broadcastInDim S690000x1 ![0] bcast_S690000_S690000x1_0 w)))) (broadcastInDim S50000x128 ![0, 1] bcast_S1x128_S50000x128_0_1 (broadcastInDim S1x128 ![1] bcast_S128_S1x128_1 b))

/-- The weights of the graph's connections, and one layer over the graph. -/
def weight (E : (⟨S2x640000, .i32⟩ : BufTy).Contents (Elt F)) : (⟨S690000, .f32⟩ : BufTy).Contents (Elt F) :=
  weightOf (src E) (dst E)
def layer (E : (⟨S2x640000, .i32⟩ : BufTy).Contents (Elt F)) (H : (⟨S50000x128, .f32⟩ : BufTy).Contents (Elt F))
    (b : (⟨S128, .f32⟩ : BufTy).Contents (Elt F)) : (⟨S50000x128, .f32⟩ : BufTy).Contents (Elt F) :=
  layerOf (src E) (dst E) (weight E) H b

/-- The positive part, entry by entry. -/
def relu (H : (⟨S50000x128, .f32⟩ : BufTy).Contents (Elt F)) : (⟨S50000x128, .f32⟩ : BufTy).Contents (Elt F) :=
  maximumf H (broadcastInDim S50000x128 ![] bcast_S_S50000x128 (constant S_ .f32 0x00000000#32))

/-- The first layer's input, `x · W1`, and the second's, `h · W2`: the host's matrix products. -/
def xW1 (x : (⟨S50000x512, .f32⟩ : BufTy).Contents (Elt F)) (W1 : (⟨S512x128, .f32⟩ : BufTy).Contents (Elt F)) : (⟨S50000x128, .f32⟩ : BufTy).Contents (Elt F) :=
  Host.dotGeneral dot_S50000x512_S512x128_S50000x128_1_0_0_1_n_n none x W1
def hW2 (h : (⟨S50000x128, .f32⟩ : BufTy).Contents (Elt F)) (W2 : (⟨S128x128, .f32⟩ : BufTy).Contents (Elt F)) : (⟨S50000x128, .f32⟩ : BufTy).Contents (Elt F) :=
  Host.dotGeneral dot_S50000x128_S128x128_S50000x128_1_0_0_1_n_n none h W2

/-- The hidden features: the first layer and its positive part. -/
def hidden (x : (⟨S50000x512, .f32⟩ : BufTy).Contents (Elt F)) (W1 : (⟨S512x128, .f32⟩ : BufTy).Contents (Elt F)) (b1 : (⟨S128, .f32⟩ : BufTy).Contents (Elt F))
    (E : (⟨S2x640000, .i32⟩ : BufTy).Contents (Elt F)) : (⟨S50000x128, .f32⟩ : BufTy).Contents (Elt F) :=
  relu (layer E (xW1 x W1) b1)

/-- The per-node features the network returns. -/
def nodes (x : (⟨S50000x512, .f32⟩ : BufTy).Contents (Elt F)) (W1 : (⟨S512x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (E : (⟨S2x640000, .i32⟩ : BufTy).Contents (Elt F)) : (⟨S50000x128, .f32⟩ : BufTy).Contents (Elt F) :=
  layer E (hW2 (hidden x W1 b1 E) W2) b2

/-- The pooling: each graph's sum of the rows of `N` over the nodes `B` assigns to it. -/
def pool (B : (⟨S50000, .i32⟩ : BufTy).Contents (Elt F)) (N : (⟨S50000x128, .f32⟩ : BufTy).Contents (Elt F)) : (⟨S256x128, .f32⟩ : BufTy).Contents (Elt F) :=
  Host.scatterAdd scatter_S256x128_S50000x1_S50000x128_1_0_0_1 (broadcastInDim S256x128 ![] bcast_S_S256x128 (constant S_ .f32 0x00000000#32)) (broadcastInDim S50000x1 ![0] bcast_S50000_S50000x1_0 B) N

end Cert.Spec

end
-- ==== Proof.RefValue.lean ====
/-
  The reference's two results are the specification's functions of its argument arrays.

  The reference's run states each result as the composed term of its 87 host operations; grouped as the
  specification groups them — connections, degrees, weights, one layer, the positive part, the two host matrix
  products, the pooling — that term is `Cert.Spec.nodes` (the per-node features) and `Cert.Spec.pool` of it (the
  pooled features), by unfolding the names on both sides.
-/
import proofs.«124221_j29111288332558_2_alg».proof.Proof.ReferenceRun
import proofs.«124221_j29111288332558_2_alg».proof.Proof.Spec

noncomputable section

namespace Cert.ReferenceIdeal.RefValue

open Cert.ReferenceIdeal Cert.ReferenceIdeal.Gen Cert.ReferenceIdeal.ValueP Idealize.ShloMosaic Idealize.ShloMosaic.TcCoe Idealize.SL.Sem

variable {F : FTy → Type} [FloatOps F]

set_option maxRecDepth 8192 in
/-- The per-node result term is the specification's `nodes` of the argument arrays. -/
theorem nodes_eq (m : (ℓ : Loc nD τ sig) → Buf (Elt F) ℓ) (c : Dev nD) :
    res_main_v64 m c = Cert.Spec.nodes (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  unfold res_main_v64 Cert.Spec.nodes Cert.Spec.hidden Cert.Spec.hW2 Cert.Spec.xW1 Cert.Spec.relu Cert.Spec.layer Cert.Spec.weight Cert.Spec.layerOf Cert.Spec.weightOf Cert.Spec.dinvOf Cert.Spec.degOf
    Cert.Spec.asIndex Cert.Spec.src Cert.Spec.dst
  rfl

set_option maxRecDepth 8192 in
/-- The pooled result term is the specification's `pool` of the batch assignment and `nodes`. -/
theorem pooled_eq (m : (ℓ : Loc nD τ sig) → Buf (Elt F) ℓ) (c : Dev nD) :
    res_main_v67 m c = Cert.Spec.pool (m ((c.tc : Thread nD τ).loc main_arg6))
      (Cert.Spec.nodes (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5))) := by
  unfold res_main_v67 Cert.Spec.pool Cert.Spec.nodes Cert.Spec.hidden Cert.Spec.hW2 Cert.Spec.xW1 Cert.Spec.relu Cert.Spec.layer Cert.Spec.weight Cert.Spec.layerOf Cert.Spec.weightOf Cert.Spec.dinvOf Cert.Spec.degOf
    Cert.Spec.asIndex Cert.Spec.src Cert.Spec.dst
  rfl

end Cert.ReferenceIdeal.RefValue

end
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibMatProd.lean ====
/-
  A plain matrix product, and the two operations that compute it.

  `prod l r` is rows times columns: entry `(i, j)` is the sum over `k : Fin K` of `l (i, k) * r (k, j)` on the
  extended reals. Both a kernel's `tpu.matmul` into a ZERO accumulator and the host's `dot_general`, over a
  contraction record for `[M, K] × [K, N] → [M, N]` with one contracted axis, are that function at the ideal
  values (the accumulator adds zero; the host's product has none). The record enters through the same six
  facts as `Cert.Lib.PlainDot.sum_rows_cols`, each by computation at a literal record. The operands' float
  formats are free: at the ideal values a change of format is the identity, so a product fed rounded operands
  is the product of the operands.

  Reading a product of a BLOCK of rows: entry `(p, q)` of `prod` of rows `T·B … T·B + B − 1` of `l` with the
  right operand is entry `(T·B + p, q)` of `prod l r` (`prod_rows`), which is what makes a product computed
  block of rows by block of rows the whole product.
-/
import Idealize.ShloMosaic.PureOps.Ideal.Laws
import Idealize.ShloMosaic.Lib.ValueIdx
import proofs.«124221_j29111288332558_2_alg».proof.Proof.LibPlainDot

noncomputable section

namespace Cert.Lib.MatProd

open Idealize.ShloMosaic Idealize.ShloMosaic.ValueIdx

/-- Rows times columns, on the extended reals. -/
def prod {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem prod_apply {M K N : ℕ} (l : (⟨2, ![M, K]⟩ : Shape).Idx → EReal) (r : (⟨2, ![K, N]⟩ : Shape).Idx → EReal)
    (i : Fin M) (j : Fin N) : prod l r (ix2 i j) = ∑ k : Fin K, l (ix2 i k) * r (ix2 k j) := rfl

/-- The host's `dot_general` over a one-axis contraction record is `prod`. -/
theorem dotGeneral_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    Host.dotGeneral D prec l r = prod l r :=
  funext fun j => (Ideal.dotGeneral_apply D prec .single l r j).trans
    (Cert.Lib.PlainDot.sum_rows_cols D hr hs hl0 hl1 hr0 hr1 l r j)

/-- A kernel's `tpu.matmul` into the zero accumulator, over a one-axis contraction record, is `prod`. -/
theorem matmul_zero_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    matmul D prec l r (constant (F := Ideal) ⟨2, ![M, N]⟩ .f32 0x00000000#32) = prod l r :=
  funext fun j => (Ideal.matmul_constant_zero_apply D prec l r j).trans
    (Cert.Lib.PlainDot.sum_rows_cols D hr hs hl0 hl1 hr0 hr1 l r j)

/-- The product of a block of `B` rows of `l`, starting at row `T * B`, read at `(p, q)`, is the whole product at
    `(T * B + p, q)`: `lb` holds those rows (`hl`) and `rb` holds column `q` of the right operand (`hr`). -/
theorem prod_rows {M K N B : ℕ} (l : (⟨2, ![M, K]⟩ : Shape).Idx → EReal) (r : (⟨2, ![K, N]⟩ : Shape).Idx → EReal)
    (lb : (⟨2, ![B, K]⟩ : Shape).Idx → EReal) (rb : (⟨2, ![K, N]⟩ : Shape).Idx → EReal)
    (T : ℕ) (p : Fin B) (q : Fin N) (h : T * B + p.val < M)
    (hl : ∀ k : Fin K, lb (ix2 p k) = l (ix2 ⟨T * B + p.val, h⟩ k))
    (hr : ∀ k : Fin K, rb (ix2 k q) = r (ix2 k q)) :
    prod lb rb (ix2 p q) = prod l r (ix2 ⟨T * B + p.val, h⟩ q) :=
  Finset.sum_congr rfl fun k _ => by
    show lb (ix2 p k) * rb (ix2 k q) = l (ix2 ⟨T * B + p.val, h⟩ k) * r (ix2 k q)
    rw [hl k, hr k]

end Cert.Lib.MatProd

end
-- ==== Proof.Region0.lean ====
/-
  The first matrix-product region: its output array ends as the whole product `x · W1`.

  The region's grid has ten points. At point `t` the body loads rows `5000 t … 5000 t + 4999` of `x` (all 512
  columns) and the whole of `W1`, forms their product into a zero accumulator — the operands pass through a
  narrower float format on the way, which at the ideal values changes nothing — and stores it as rows
  `5000 t … 5000 t + 4999` of the output. Entry `(r, j)` of a product of a block of rows is entry
  `(5000 t + r, j)` of the product of all rows, so what point `t` writes back is its block of ONE array, the whole
  product; the ten blocks tile the 50000 rows, so that array is what the region leaves.
  Stated at a PARAMETER `V`, the buffer contents when the region is entered, like the region's generated half.
-/
import proofs.«124221_j29111288332558_2_alg».proof.Proof.Gen.KernelIdeal.Frame
import proofs.«124221_j29111288332558_2_alg».proof.Proof.LibMatProd
import Idealize.ShloMosaic.Lib.Pipeline.Value
import Idealize.ShloMosaic.Lib.ValueIdx

set_option maxRecDepth 16384

noncomputable section

namespace Cert.KernelIdeal.Region0

open Cert.KernelIdeal Cert.KernelIdeal.Gen Cert.Lib.MatProd
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- What the body stores is the product of the two blocks it loaded. -/
theorem stored_eq (x0 : Vec Ideal S5000x512 .f32) (x1 : Vec Ideal S512x128 .f32) :
    k0_pay1 x0 x1 = prod (M := 5000) (K := 512) (N := 128) x0 x1 := by
  unfold k0_pay1
  exact matmul_zero_eq_prod (M := 5000) (K := 512) (N := 128) dot_S5000x512_S512x128_S5000x128_1_0_0_1_n_n rfl rfl
    (fun _ _ => rfl) (fun _ _ => rfl) (fun _ _ => rfl) (fun _ _ => rfl) none _ _

/-- The printed index maps over the grid: the rows window and the output window sit at block `t` of their first
    axis, everything else at block 0. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- What point `t` writes back is its block of the whole product of the arrays the region finds. -/
theorem flushed_eq (c : Dev nD) (t : Fin cfg0.N) :
    (dat0 V c).flushed 2 t = ((cfg0.win 2).blk t).view.read (Elt Ideal)
      (prod (M := 50000) (K := 512) (N := 128) (V c main_arg0) (V c main_arg1)) := by
  show (cfg0.win 2).cut (grid0.coords t) ((dat0 V c).after 2 t) = _
  rw [after0_2]
  unfold out0_2
  rw [View.canon_unit_zero origin]
  simp only [View.ld_unit_zero (S := S5000x512) origin, View.ld_unit_zero (S := S512x128) origin]
  rw [stored_eq]
  obtain ⟨e0, e1, e2, e3, e4, e5, e6⟩ := index_facts t
  funext y
  obtain ⟨p, q, rfl⟩ : ∃ (p : Fin 5000) (q : Fin 128), y = ix2 p q := ⟨y 0, y 1, eq_ix2 y⟩
  have hrow : t.val * 5000 + p.val < 50000 := by have := p.isLt; omega
  show prod (M := 5000) (K := 512) (N := 128) (iblk0 V c 0 t) (iblk0 V c 1 t) (ix2 p q)
    = prod (M := 50000) (K := 512) (N := 128) (V c main_arg0) (V c main_arg1) (((cfg0.win 2).blk t).view.emb (ix2 p q))
  have hout : ((cfg0.win 2).blk t).view.emb (ix2 p q) = ix2 (n0 := 50000) (n1 := 128) ⟨t.val * 5000 + p.val, hrow⟩ q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hout]
  refine prod_rows (M := 50000) (K := 512) (N := 128) (B := 5000) (V c main_arg0) (V c main_arg1)
    (iblk0 V c 0 t) (iblk0 V c 1 t) t.val p q hrow (fun k => ?_) (fun k => ?_)
  · show V c main_arg0 (((cfg0.win 0).blk t).view.emb (ix2 p k)) = V c main_arg0 (ix2 ⟨t.val * 5000 + p.val, hrow⟩ k)
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 512 + 1 * k.val = k.val; omega
  · show V c main_arg1 (((cfg0.win 1).blk t).view.emb (ix2 k q)) = V c main_arg1 (ix2 k q)
    refine congrArg (V c main_arg1) ?_
    funext a; apply Fin.ext
    match a with
    | ⟨0, _⟩ => show win0_1.index t (0 : Fin 2) * 512 + 1 * k.val = k.val; omega
    | ⟨1, _⟩ => show win0_1.index t (1 : Fin 2) * 128 + 1 * q.val = q.val; omega

/-- An index of the output array is in point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the output array is in the block of the point its row falls in, `row / 5000`. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 5000 < cfg0.N := by show _ < grid0.N; rw [N_0]; omega
  refine ⟨⟨(i 0).val / 5000, hN⟩, flush0_2 _, ?_⟩
  rw [mem_block]
  obtain ⟨e0, e1, e2, e3, e4, e5, e6⟩ := index_facts ⟨(i 0).val / 5000, hN⟩
  have e4' : win0_2.index ⟨(i 0).val / 5000, hN⟩ (0 : Fin 2) = (i 0).val / 5000 := e4
  intro a
  match a with
  | ⟨0, _⟩ => show win0_2.index ⟨(i 0).val / 5000, hN⟩ (0 : Fin 2) * 5000 ≤ (i 0).val ∧ (i 0).val < win0_2.index ⟨(i 0).val / 5000, hN⟩ (0 : Fin 2) * 5000 + 5000; omega
  | ⟨1, _⟩ => show win0_2.index ⟨(i 0).val / 5000, hN⟩ (1 : Fin 2) * 128 ≤ (i 1).val ∧ (i 1).val < win0_2.index ⟨(i 0).val / 5000, hN⟩ (1 : Fin 2) * 128 + 128; omega

/-- The output array after the region: the whole product of the two arrays the region finds. -/
theorem array_eq (c : Dev nD) :
    (dat0 V c).arrAt 2 cfg0.N = prod (M := 50000) (K := 512) (N := 128) (V c main_arg0) (V c main_arg1) :=
  (dat0 V c).arrAt_eq_of_cover 2 _ (fun t _ => flushed_eq V c t) covered

end Cert.KernelIdeal.Region0

end
-- ==== Proof.Region1.lean ====
/-
  The second matrix-product region: its output array ends as the whole product `h · W2` of the hidden features.

  As in the first region, with 128 contracted places: at point `t` of ten the body loads rows
  `5000 t … 5000 t + 4999` of the hidden features and the whole of `W2`, recasts the rows to the shape they
  already have (the identity), forms the product into a zero accumulator through a narrower float format (the
  identity at the ideal values) and stores it as the same rows of the output. Each point writes back its block
  of ONE array, the whole product, and the ten blocks tile the 50000 rows.
  Stated at a PARAMETER `V`, the buffer contents when the region is entered.
-/
import proofs.«124221_j29111288332558_2_alg».proof.Proof.Gen.KernelIdeal.Frame
import proofs.«124221_j29111288332558_2_alg».proof.Proof.LibMatProd
import Idealize.ShloMosaic.Lib.Pipeline.Value
import Idealize.ShloMosaic.Lib.ValueIdx

set_option maxRecDepth 16384

noncomputable section

namespace Cert.KernelIdeal.Region1

open Cert.KernelIdeal Cert.KernelIdeal.Gen Cert.Lib.MatProd
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- What the body stores is the product of the two blocks it loaded. -/
theorem stored_eq (x0 : Vec Ideal S5000x128 .f32) (x1 : Vec Ideal S128x128 .f32) :
    k1_pay1 x0 x1 = prod (M := 5000) (K := 128) (N := 128) x0 x1 := by
  unfold k1_pay1
  rw [shapeCast_self]
  exact matmul_zero_eq_prod (M := 5000) (K := 128) (N := 128) dot_S5000x128_S128x128_S5000x128_1_0_0_1_n_n rfl rfl
    (fun _ _ => rfl) (fun _ _ => rfl) (fun _ _ => rfl) (fun _ _ => rfl) none _ _

/-- The printed index maps over the grid: the rows window and the output window sit at block `t` of their first
    axis, everything else at block 0. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- What point `t` writes back is its block of the whole product of the arrays the region finds. -/
theorem flushed_eq (c : Dev nD) (t : Fin cfg1.N) :
    (dat1 V c).flushed 2 t = ((cfg1.win 2).blk t).view.read (Elt Ideal)
      (prod (M := 50000) (K := 128) (N := 128) (V c main_v47) (V c main_arg3)) := by
  show (cfg1.win 2).cut (grid1.coords t) ((dat1 V c).after 2 t) = _
  rw [after1_2]
  unfold out1_2
  rw [View.canon_unit_zero origin]
  simp only [View.ld_unit_zero (S := S5000x128) origin, View.ld_unit_zero (S := S128x128) origin]
  rw [stored_eq]
  obtain ⟨e0, e1, e2, e3, e4, e5, e6⟩ := index_facts t
  funext y
  obtain ⟨p, q, rfl⟩ : ∃ (p : Fin 5000) (q : Fin 128), y = ix2 p q := ⟨y 0, y 1, eq_ix2 y⟩
  have hrow : t.val * 5000 + p.val < 50000 := by have := p.isLt; omega
  show prod (M := 5000) (K := 128) (N := 128) (iblk1 V c 0 t) (iblk1 V c 1 t) (ix2 p q)
    = prod (M := 50000) (K := 128) (N := 128) (V c main_v47) (V c main_arg3) (((cfg1.win 2).blk t).view.emb (ix2 p q))
  have hout : ((cfg1.win 2).blk t).view.emb (ix2 p q) = ix2 (n0 := 50000) (n1 := 128) ⟨t.val * 5000 + p.val, hrow⟩ q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  rw [hout]
  refine prod_rows (M := 50000) (K := 128) (N := 128) (B := 5000) (V c main_v47) (V c main_arg3)
    (iblk1 V c 0 t) (iblk1 V c 1 t) t.val p q hrow (fun k => ?_) (fun k => ?_)
  · show V c main_v47 (((cfg1.win 0).blk t).view.emb (ix2 p k)) = V c main_v47 (ix2 ⟨t.val * 5000 + p.val, hrow⟩ k)
    refine congrArg (V c main_v47) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  · show V c main_arg3 (((cfg1.win 1).blk t).view.emb (ix2 k q)) = V c main_arg3 (ix2 k q)
    refine congrArg (V c main_arg3) ?_
    funext a; apply Fin.ext
    match a with
    | ⟨0, _⟩ => show win1_1.index t (0 : Fin 2) * 128 + 1 * k.val = k.val; omega
    | ⟨1, _⟩ => show win1_1.index t (1 : Fin 2) * 128 + 1 * q.val = q.val; omega

/-- An index of the output array is in point `t`'s block iff each coordinate is in the block's range on its axis. -/
theorem mem_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- Every index of the output array is in the block of the point its row falls in, `row / 5000`. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : (i 0).val / 5000 < cfg1.N := by show _ < grid1.N; rw [N_1]; omega
  refine ⟨⟨(i 0).val / 5000, hN⟩, flush1_2 _, ?_⟩
  rw [mem_block]
  obtain ⟨e0, e1, e2, e3, e4, e5, e6⟩ := index_facts ⟨(i 0).val / 5000, hN⟩
  have e4' : win1_2.index ⟨(i 0).val / 5000, hN⟩ (0 : Fin 2) = (i 0).val / 5000 := e4
  intro a
  match a with
  | ⟨0, _⟩ => show win1_2.index ⟨(i 0).val / 5000, hN⟩ (0 : Fin 2) * 5000 ≤ (i 0).val ∧ (i 0).val < win1_2.index ⟨(i 0).val / 5000, hN⟩ (0 : Fin 2) * 5000 + 5000; omega
  | ⟨1, _⟩ => show win1_2.index ⟨(i 0).val / 5000, hN⟩ (1 : Fin 2) * 128 ≤ (i 1).val ∧ (i 1).val < win1_2.index ⟨(i 0).val / 5000, hN⟩ (1 : Fin 2) * 128 + 128; omega

/-- The output array after the region: the whole product of the two arrays the region finds. -/
theorem array_eq (c : Dev nD) :
    (dat1 V c).arrAt 2 cfg1.N = prod (M := 50000) (K := 128) (N := 128) (V c main_v47) (V c main_arg3) :=
  (dat1 V c).arrAt_eq_of_cover 2 _ (fun t _ => flushed_eq V c t) covered

end Cert.KernelIdeal.Region1

end
-- ==== Proof.Boundaries.lean ====
/-
  What the buffers hold at each boundary between the program's segments, as functions of the argument arrays.

  The host operations of the program are the reference's own, in the same order; only the two matrix products
  are regions. So each stretch of host operations is read once, over ANY buffer contents `U` it may start from:
    * the first stretch builds the connections' source and target arrays from the edge list (`src_eq`, `dst_eq`)
      and, with the call of `where` and the stretch after it, each connection's weight from those two arrays
      (`weights_eq`, from the degrees' reads, `where_eq` and `gathers_eq`);
    * the stretch between the regions applies one layer's aggregation to the first product (`layer1_eq`) and the
      call of `relu` its positive part (`relu_eq`): together `hidden_eq`;
    * the last stretch applies the second layer's aggregation to the second product and pools it (`nodes_eq`,
      `pooled_eq`);
  and none of them writes a buffer a later segment still reads (the `keep` facts). A region replaces its output
  array by the whole product of its two operand arrays (the two region modules) and leaves every other buffer.
  What later segments need of the buffers — the connections' sources, targets and weights, and the arguments not
  yet consumed — is the record `Live`, carried from boundary to boundary; at the last boundary the two results
  are the specification's `nodes` and `pool`.
-/
import proofs.«124221_j29111288332558_2_alg».proof.Proof.Gen.KernelIdeal.Frame
import proofs.«124221_j29111288332558_2_alg».proof.Proof.Gen.ReferenceIdeal
import proofs.«124221_j29111288332558_2_alg».proof.Proof.Spec
import proofs.«124221_j29111288332558_2_alg».proof.Proof.Region0
import proofs.«124221_j29111288332558_2_alg».proof.Proof.Region1
import proofs.«124221_j29111288332558_2_alg».proof.Proof.LibMatProd
import Idealize.ShloMosaic.Lib.StableHlo.Run
import Idealize.ShloMosaic.PureOps.Ideal

set_option maxRecDepth 16384

noncomputable section

namespace Cert.KernelIdeal.Bound

open Cert.KernelIdeal Cert.KernelIdeal.Gen Cert.Spec
open Idealize.ShloMosaic Idealize.ShloMosaic.TcCoe Idealize.SL.Sem Idealize.ShloMosaic.StableHlo

local notation "𝕍al" => Valuation τ sig (Elt Ideal)
local notation "dr" => Proc.devRef (τ := τ) Proc.tc

/-! ## Each stretch of host operations, from any contents `U` -/

section Stretches
variable (U : 𝕍al)

/-- The first stretch leaves the connections' sources at `main_v3` … -/
theorem src_eq : after hostOps0 U (dr main_v3) = src (F := Ideal) (U (dr main_arg5)) := by
  dsimp only [hostOps0]
  after_results_simp
  rfl

/-- … and their targets at `main_v6`. -/
theorem dst_eq : after hostOps0 U (dr main_v6) = dst (F := Ideal) (U (dr main_arg5)) := by
  dsimp only [hostOps0]
  after_results_simp
  rfl

/-- The first stretch also leaves, computed from the targets array it built: whether each node's degree is
    positive, the reciprocal square root of each degree, and a zero. -/
theorem degree_positive_eq : after hostOps0 U (dr main_v12)
    = cmpf (F := Ideal) .ogt (degOf (after hostOps0 U (dr main_v6)))
        (broadcastInDim Cert.ReferenceIdeal.S50000 ![] Cert.ReferenceIdeal.Facts₀.bcast_S_S50000 (constant (F := Ideal) Cert.ReferenceIdeal.S_ .f32 0x00000000#32)) := by
  unfold degOf
  dsimp only [hostOps0]
  after_results_simp
  rfl

theorem degree_rsqrt_eq : after hostOps0 U (dr main_v13) = Host.rsqrt (F := Ideal) (φ := .f32) (degOf (after hostOps0 U (dr main_v6))) := by
  unfold degOf
  dsimp only [hostOps0]
  after_results_simp
  rfl

theorem zero_eq : after hostOps0 U (dr main_cst_2) = constant (F := Ideal) Cert.ReferenceIdeal.S_ .f32 0x00000000#32 := by
  dsimp only [hostOps0]
  after_results_simp

/-- The call of `where`: the second of its operands where the first holds, the third (a scalar, spread over the
    nodes) elsewhere. -/
theorem where_eq : after hostOps0_1 U (dr main_v14)
    = select (U (dr main_v12)) (U (dr main_v13))
        (broadcastInDim Cert.ReferenceIdeal.S50000 ![] Cert.ReferenceIdeal.Facts₀.bcast_S_S50000 (id (U (dr main_cst_2)))) := by
  dsimp only [hostOps0_1]
  after_results_simp
  rfl

/-- The stretch before the first region multiplies, connection by connection, the entries of `main_v14` at the
    connection's source and at its target. -/
theorem gathers_eq : after hostOps0_2 U (dr main_v29)
    = mulf (F := Ideal) (φ := .f32) (Host.gather Cert.ReferenceIdeal.gather_S50000_S690000x1_S690000_n_0_n_n_0_1_1 (U (dr main_v14)) (asIndex (U (dr main_v3))))
        (Host.gather Cert.ReferenceIdeal.gather_S50000_S690000x1_S690000_n_0_n_n_0_1_1 (U (dr main_v14)) (asIndex (U (dr main_v6)))) := by
  unfold asIndex
  dsimp only [hostOps0_2]
  after_results_simp
  rfl

theorem keep_where_src : after hostOps0_1 U (dr main_v3) = U (dr main_v3) := by dsimp only [hostOps0_1]; after_results_simp
theorem keep_where_dst : after hostOps0_1 U (dr main_v6) = U (dr main_v6) := by dsimp only [hostOps0_1]; after_results_simp

/-- The three stretches before the first region leave each connection's weight at `main_v29`: the function
    `weightOf` of the two connection arrays the first stretch built. -/
theorem weights_eq : after hostOps0_2 (after hostOps0_1 (after hostOps0 U)) (dr main_v29)
    = weightOf (F := Ideal) (after hostOps0 U (dr main_v3)) (after hostOps0 U (dr main_v6)) := by
  rw [gathers_eq, where_eq, keep_where_src, keep_where_dst, degree_positive_eq, degree_rsqrt_eq, zero_eq]
  rfl

/-- The stretch after the first region leaves at `main_v46` one layer's aggregation of the region's output with
    the first bias … -/
theorem layer1_eq : after hostOps1 U (dr main_v46)
    = layerOf (F := Ideal) (U (dr main_v3)) (U (dr main_v6)) (U (dr main_v29)) (U (dr main_v30)) (U (dr main_arg2)) := by
  unfold layerOf asIndex
  dsimp only [hostOps1]
  after_results_simp
  rfl

/-- … and the call of `relu` its positive part at `main_v47`. -/
theorem relu_eq : after hostOps1_1 U (dr main_v47) = relu (F := Ideal) (U (dr main_v46)) := by
  unfold relu
  dsimp only [hostOps1_1]
  after_results_simp
  rfl

theorem hidden_eq : after hostOps1_1 (after hostOps1 U) (dr main_v47)
    = relu (F := Ideal) (layerOf (U (dr main_v3)) (U (dr main_v6)) (U (dr main_v29)) (U (dr main_v30)) (U (dr main_arg2))) :=
  (relu_eq (after hostOps1 U)).trans (congrArg (relu (F := Ideal)) (layer1_eq U))

/-- The last stretch leaves at `main_v64` one layer's aggregation of the second region's output with the second
    bias … -/
theorem nodes_eq : after hostOps2 U (dr main_v64)
    = layerOf (F := Ideal) (U (dr main_v3)) (U (dr main_v6)) (U (dr main_v29)) (U (dr main_v48)) (U (dr main_arg4)) := by
  unfold layerOf asIndex
  dsimp only [hostOps2]
  after_results_simp
  rfl

/-- … and at `main_v67` its pooling by the batch assignment. -/
theorem pooled_eq : after hostOps2 U (dr main_v67)
    = Cert.Spec.pool (F := Ideal) (U (dr main_arg6)) (layerOf (U (dr main_v3)) (U (dr main_v6)) (U (dr main_v29)) (U (dr main_v48)) (U (dr main_arg4))) := by
  unfold Cert.Spec.pool layerOf asIndex
  dsimp only [hostOps2]
  after_results_simp
  rfl

end Stretches

/-! ## Buffers no stretch writes -/

section Keep
variable (U : 𝕍al)

/-- Closes `after … U (dr b) = U (dr b)` for a buffer none of the listed operations writes. -/
local macro "keep_unwritten" : tactic =>
  `(tactic| (dsimp only [hostOps0, hostOps0_1, hostOps0_2, hostOps1, hostOps1_1, hostOps2]; after_results_simp))

theorem keepA_src : after hostOps0_2 (after hostOps0_1 U) (dr main_v3) = U (dr main_v3) := by keep_unwritten
theorem keepA_dst : after hostOps0_2 (after hostOps0_1 U) (dr main_v6) = U (dr main_v6) := by keep_unwritten
theorem keepA_arg0 : after hostOps0_2 (after hostOps0_1 (after hostOps0 U)) (dr main_arg0) = U (dr main_arg0) := by keep_unwritten
theorem keepA_arg1 : after hostOps0_2 (after hostOps0_1 (after hostOps0 U)) (dr main_arg1) = U (dr main_arg1) := by keep_unwritten
theorem keepA_arg2 : after hostOps0_2 (after hostOps0_1 (after hostOps0 U)) (dr main_arg2) = U (dr main_arg2) := by keep_unwritten
theorem keepA_arg3 : after hostOps0_2 (after hostOps0_1 (after hostOps0 U)) (dr main_arg3) = U (dr main_arg3) := by keep_unwritten
theorem keepA_arg4 : after hostOps0_2 (after hostOps0_1 (after hostOps0 U)) (dr main_arg4) = U (dr main_arg4) := by keep_unwritten
theorem keepA_arg6 : after hostOps0_2 (after hostOps0_1 (after hostOps0 U)) (dr main_arg6) = U (dr main_arg6) := by keep_unwritten

theorem keepB_src : after hostOps1_1 (after hostOps1 U) (dr main_v3) = U (dr main_v3) := by keep_unwritten
theorem keepB_dst : after hostOps1_1 (after hostOps1 U) (dr main_v6) = U (dr main_v6) := by keep_unwritten
theorem keepB_wgt : after hostOps1_1 (after hostOps1 U) (dr main_v29) = U (dr main_v29) := by keep_unwritten
theorem keepB_arg2 : after hostOps1_1 (after hostOps1 U) (dr main_arg2) = U (dr main_arg2) := by keep_unwritten
theorem keepB_arg3 : after hostOps1_1 (after hostOps1 U) (dr main_arg3) = U (dr main_arg3) := by keep_unwritten
theorem keepB_arg4 : after hostOps1_1 (after hostOps1 U) (dr main_arg4) = U (dr main_arg4) := by keep_unwritten
theorem keepB_arg6 : after hostOps1_1 (after hostOps1 U) (dr main_arg6) = U (dr main_arg6) := by keep_unwritten

end Keep

/-! ## From boundary to boundary -/

/-- What the segments after a boundary still read of the buffers, in terms of the argument arrays: the
    connections' sources, targets and weights, and the arguments not yet consumed. -/
structure Live (U : 𝕍al) (E : (⟨Cert.ReferenceIdeal.S2x640000, .i32⟩ : BufTy).Contents (Elt Ideal))
    (b1 : (⟨Cert.ReferenceIdeal.S128, .f32⟩ : BufTy).Contents (Elt Ideal)) (W2 : (⟨Cert.ReferenceIdeal.S128x128, .f32⟩ : BufTy).Contents (Elt Ideal))
    (b2 : (⟨Cert.ReferenceIdeal.S128, .f32⟩ : BufTy).Contents (Elt Ideal)) (B : (⟨Cert.ReferenceIdeal.S50000, .i32⟩ : BufTy).Contents (Elt Ideal)) : Prop where
  hsrc : U (dr main_v3) = src E
  hdst : U (dr main_v6) = dst E
  hwgt : U (dr main_v29) = weight E
  hb1 : U (dr main_arg2) = b1
  hW2 : U (dr main_arg3) = W2
  hb2 : U (dr main_arg4) = b2
  hB : U (dr main_arg6) = B

section Chain
variable (m : (ℓ : Loc nD τ sig) → Buf (Elt Ideal) ℓ) (ρ : Dev nD → PrngReg) (c : Dev nD)

/-- At the first region's entry. -/
theorem live3 : Live (W3 m ρ c) (m ((c : Thread nD τ).loc main_arg5)) (m ((c : Thread nD τ).loc main_arg2))
    (m ((c : Thread nD τ).loc main_arg3)) (m ((c : Thread nD τ).loc main_arg4)) (m ((c : Thread nD τ).loc main_arg6)) where
  hsrc := (keepA_src (W1 m ρ c)).trans (src_eq (W0 m ρ c))
  hdst := (keepA_dst (W1 m ρ c)).trans (dst_eq (W0 m ρ c))
  hwgt := (weights_eq (W0 m ρ c)).trans (by rw [src_eq, dst_eq]; rfl)
  hb1 := keepA_arg2 (W0 m ρ c)
  hW2 := keepA_arg3 (W0 m ρ c)
  hb2 := keepA_arg4 (W0 m ρ c)
  hB := keepA_arg6 (W0 m ρ c)

/-- The first region finds `x` and `W1` as launched … -/
theorem entry0_x : V3 m ρ c main_arg0 = m ((c : Thread nD τ).loc main_arg0) := keepA_arg0 (W0 m ρ c)
theorem entry0_w : V3 m ρ c main_arg1 = m ((c : Thread nD τ).loc main_arg1) := keepA_arg1 (W0 m ρ c)

/-- … and leaves their product, the host's `x · W1`, at `main_v30`. -/
theorem first_product : W4 m ρ c (dr main_v30)
    = xW1 (F := Ideal) (m ((c : Thread nD τ).loc main_arg0)) (m ((c : Thread nD τ).loc main_arg1)) := by
  refine (W4_arr m ρ c 2).trans ((Cert.KernelIdeal.Region0.array_eq (V3 m ρ) c).trans ?_)
  rw [entry0_x, entry0_w]
  unfold xW1
  exact (Cert.Lib.MatProd.dotGeneral_eq_prod (M := 50000) (K := 512) (N := 128)
    Cert.ReferenceIdeal.dot_S50000x512_S512x128_S50000x128_1_0_0_1_n_n rfl rfl
    (fun _ _ => rfl) (fun _ _ => rfl) (fun _ _ => rfl) (fun _ _ => rfl) none _ _).symm

/-- At the first region's exit: the region writes only its output array. -/
theorem live4 : Live (W4 m ρ c) (m ((c : Thread nD τ).loc main_arg5)) (m ((c : Thread nD τ).loc main_arg2))
    (m ((c : Thread nD τ).loc main_arg3)) (m ((c : Thread nD τ).loc main_arg4)) (m ((c : Thread nD τ).loc main_arg6)) where
  hsrc := (W4_of_ne m ρ c main_v3 (by decide)).trans (live3 m ρ c).hsrc
  hdst := (W4_of_ne m ρ c main_v6 (by decide)).trans (live3 m ρ c).hdst
  hwgt := (W4_of_ne m ρ c main_v29 (by decide)).trans (live3 m ρ c).hwgt
  hb1 := (W4_of_ne m ρ c main_arg2 (by decide)).trans (live3 m ρ c).hb1
  hW2 := (W4_of_ne m ρ c main_arg3 (by decide)).trans (live3 m ρ c).hW2
  hb2 := (W4_of_ne m ρ c main_arg4 (by decide)).trans (live3 m ρ c).hb2
  hB := (W4_of_ne m ρ c main_arg6 (by decide)).trans (live3 m ρ c).hB

/-- At the second region's entry its left operand holds the hidden features. -/
theorem hidden_features : W6 m ρ c (dr main_v47)
    = hidden (F := Ideal) (m ((c : Thread nD τ).loc main_arg0)) (m ((c : Thread nD τ).loc main_arg1))
        (m ((c : Thread nD τ).loc main_arg2)) (m ((c : Thread nD τ).loc main_arg5)) := by
  refine (hidden_eq (W4 m ρ c)).trans ?_
  rw [(live4 m ρ c).hsrc, (live4 m ρ c).hdst, (live4 m ρ c).hwgt, first_product, (live4 m ρ c).hb1]
  rfl

theorem live6 : Live (W6 m ρ c) (m ((c : Thread nD τ).loc main_arg5)) (m ((c : Thread nD τ).loc main_arg2))
    (m ((c : Thread nD τ).loc main_arg3)) (m ((c : Thread nD τ).loc main_arg4)) (m ((c : Thread nD τ).loc main_arg6)) where
  hsrc := (keepB_src (W4 m ρ c)).trans (live4 m ρ c).hsrc
  hdst := (keepB_dst (W4 m ρ c)).trans (live4 m ρ c).hdst
  hwgt := (keepB_wgt (W4 m ρ c)).trans (live4 m ρ c).hwgt
  hb1 := (keepB_arg2 (W4 m ρ c)).trans (live4 m ρ c).hb1
  hW2 := (keepB_arg3 (W4 m ρ c)).trans (live4 m ρ c).hW2
  hb2 := (keepB_arg4 (W4 m ρ c)).trans (live4 m ρ c).hb2
  hB := (keepB_arg6 (W4 m ρ c)).trans (live4 m ρ c).hB

/-- The second region leaves the host's `h · W2` of the hidden features at `main_v48`. -/
theorem second_product : W7 m ρ c (dr main_v48)
    = hW2 (F := Ideal) (hidden (m ((c : Thread nD τ).loc main_arg0)) (m ((c : Thread nD τ).loc main_arg1))
        (m ((c : Thread nD τ).loc main_arg2)) (m ((c : Thread nD τ).loc main_arg5))) (m ((c : Thread nD τ).loc main_arg3)) := by
  refine (W7_arr m ρ c 2).trans ((Cert.KernelIdeal.Region1.array_eq (V6 m ρ) c).trans ?_)
  rw [show V6 m ρ c main_v47 = _ from hidden_features m ρ c, show V6 m ρ c main_arg3 = _ from (live6 m ρ c).hW2]
  unfold hW2
  exact (Cert.Lib.MatProd.dotGeneral_eq_prod (M := 50000) (K := 128) (N := 128)
    Cert.ReferenceIdeal.dot_S50000x128_S128x128_S50000x128_1_0_0_1_n_n rfl rfl
    (fun _ _ => rfl) (fun _ _ => rfl) (fun _ _ => rfl) (fun _ _ => rfl) none _ _).symm

theorem live7 : Live (W7 m ρ c) (m ((c : Thread nD τ).loc main_arg5)) (m ((c : Thread nD τ).loc main_arg2))
    (m ((c : Thread nD τ).loc main_arg3)) (m ((c : Thread nD τ).loc main_arg4)) (m ((c : Thread nD τ).loc main_arg6)) where
  hsrc := (W7_of_ne m ρ c main_v3 (by decide)).trans (live6 m ρ c).hsrc
  hdst := (W7_of_ne m ρ c main_v6 (by decide)).trans (live6 m ρ c).hdst
  hwgt := (W7_of_ne m ρ c main_v29 (by decide)).trans (live6 m ρ c).hwgt
  hb1 := (W7_of_ne m ρ c main_arg2 (by decide)).trans (live6 m ρ c).hb1
  hW2 := (W7_arr m ρ c 1).trans (((dat1 (V6 m ρ) c).arrAt_in 1 rfl _).trans ((A_eq1 (V6 m ρ) c 1).trans (live6 m ρ c).hW2))
  hb2 := (W7_of_ne m ρ c main_arg4 (by decide)).trans (live6 m ρ c).hb2
  hB := (W7_of_ne m ρ c main_arg6 (by decide)).trans (live6 m ρ c).hB

/-- THE RESULTS. After the last stretch the per-node features are the specification's `nodes` of the arguments … -/
theorem result_nodes : W8 m ρ c (dr main_v64)
    = nodes (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (nodes_eq (W7 m ρ c)).trans ?_
  rw [(live7 m ρ c).hsrc, (live7 m ρ c).hdst, (live7 m ρ c).hwgt, second_product, (live7 m ρ c).hb2]
  rfl

/-- … and the pooled features their `pool` by the batch assignment. -/
theorem result_pooled : W8 m ρ c (dr main_v67)
    = Cert.Spec.pool (F := Ideal) (m ((c : Thread nD τ).loc main_arg6))
        (nodes (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))) := by
  refine (pooled_eq (W7 m ρ c)).trans ?_
  rw [(live7 m ρ c).hsrc, (live7 m ρ c).hdst, (live7 m ρ c).hwgt, second_product, (live7 m ρ c).hb2, (live7 m ρ c).hB]
  rfl

end Chain

end Cert.KernelIdeal.Bound

end
-- ==== Proof.lean ====
/-
  A two-layer graph convolution with pooling: the kernel program against its reference, at the ideal values.

  Both programs compute, from node features `x` (50000 × 512), weights and biases `W1, b1, W2, b2`, an edge
  list and a batch assignment,

      nodes  = layer (relu (layer (x · W1) b1) · W2) b2        pooled = the per-graph sums of `nodes`

  where `layer H b` sends every node's row of `H`, scaled by the connection's weight, along each connection
  (edges and self-loops) and adds `b` (`Cert.Spec`). Every operation other than the two matrix products is the
  same host operation in both programs, in the same order. The reference forms each product by one host
  `dot_general`; the kernel program forms it in a region of ten grid points, point `t` multiplying rows
  `5000 t … 5000 t + 4999` of the left operand by the whole right operand into a zero accumulator, through a
  narrower float format that is the identity at the ideal values. A product of a block of rows is that block of
  rows of the product, and the ten blocks tile the rows, so each region leaves the host's product
  (`Region0.array_eq`, `Region1.array_eq`, `Cert.Lib.MatProd`). No law of the extended reals beyond `0 + s = s`
  is used, so the precondition (finite inputs) is never opened.

  The kernel program's run names its two results at the last segment boundary's contents (`Named.run`), which
  `Bound.result_nodes` / `Bound.result_pooled` read as the specification's functions of the argument arrays;
  the reference's run names its results by their composed terms, which are the same functions
  (`RefValue.nodes_eq` / `pooled_eq`). The three frames are the runs with the results dropped; the idealized
  kernel program is the printed one read at the ideal values with nothing rewritten, so `preserves` asks nothing.
-/
import proofs.«124221_j29111288332558_2_alg».proof.Defs
import proofs.«124221_j29111288332558_2_alg».proof.Proof.Gen.Kernel
import proofs.«124221_j29111288332558_2_alg».proof.Proof.Gen.Kernel.Skeleton
import proofs.«124221_j29111288332558_2_alg».proof.Proof.Gen.Kernel.Launch
import proofs.«124221_j29111288332558_2_alg».proof.Proof.Gen.Kernel.Points
import proofs.«124221_j29111288332558_2_alg».proof.Proof.Gen.Kernel.Frame
import proofs.«124221_j29111288332558_2_alg».proof.Proof.Gen.KernelIdeal
import proofs.«124221_j29111288332558_2_alg».proof.Proof.Gen.KernelIdeal.Skeleton
import proofs.«124221_j29111288332558_2_alg».proof.Proof.Gen.KernelIdeal.Launch
import proofs.«124221_j29111288332558_2_alg».proof.Proof.Gen.KernelIdeal.Points
import proofs.«124221_j29111288332558_2_alg».proof.Proof.Gen.KernelIdeal.Frame
import proofs.«124221_j29111288332558_2_alg».proof.Proof.Gen.ReferenceIdeal
import proofs.«124221_j29111288332558_2_alg».proof.Proof.Gen.Pre_finite_inputs
import proofs.«124221_j29111288332558_2_alg».proof.Proof.NamedRun
import proofs.«124221_j29111288332558_2_alg».proof.Proof.ReferenceRun
import proofs.«124221_j29111288332558_2_alg».proof.Proof.RefValue
import proofs.«124221_j29111288332558_2_alg».proof.Proof.Boundaries
import Idealize.ShloMosaic.Adequacy
import Idealize.ShloMosaic.Init

noncomputable section

namespace Cert.Proof

open Idealize.ShloMosaic Idealize.ShloMosaic.TcCoe Idealize.SL.Sem

/-- The kernel program at the ideal values ends with the pooled features and the per-node features at the
    specification's functions of its argument arrays, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v67)
          = Cert.Spec.pool (F := Ideal) (m ((c.tc : Thread Cert.KernelIdeal.nD Cert.KernelIdeal.τ).loc Cert.KernelIdeal.main_arg6))
              (Cert.Spec.nodes (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3))
                (m ((c.tc : Thread Cert.KernelIdeal.nD Cert.KernelIdeal.τ).loc Cert.KernelIdeal.main_arg4))
                (m ((c.tc : Thread Cert.KernelIdeal.nD Cert.KernelIdeal.τ).loc Cert.KernelIdeal.main_arg5)))
        ∧ r.2.mem ((c.tc : Thread Cert.KernelIdeal.nD Cert.KernelIdeal.τ).loc Cert.KernelIdeal.main_v64)
          = Cert.Spec.nodes (F := Ideal) (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3))
                (m ((c.tc : Thread Cert.KernelIdeal.nD Cert.KernelIdeal.τ).loc Cert.KernelIdeal.main_arg4))
                (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run (Cert.KernelIdeal.defs (F := Ideal)) _ _).mono
    (fun _ h c => ⟨(h c).1.trans (Cert.KernelIdeal.Bound.result_pooled m ρ c),
      (h c).2.1.trans (Cert.KernelIdeal.Bound.result_nodes m ρ c), (h c).2.2⟩)
    (Cert.KernelIdeal.Named.run (F := Ideal) m ρ)

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The idealized kernel program is the printed one with nothing rewritten. -/
theorem preserves : Cert.preserves_Kernel_KernelIdeal := trivial

/-- From memories agreeing on the arguments both programs end at the specification's functions of those
    arguments: the kernel program by `kernel_run`, the reference by its run and `RefValue`. -/
theorem algebraic : Cert.algebraic_KernelIdeal_ReferenceIdeal := by
  intro m ρ m' ρ' _ hagree
  refine ⟨_, _, kernel_run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨h0, h1, h2, h3, h4, h5, h6⟩ := hagree c
    rw [Cert.ReferenceIdeal.RefValue.pooled_eq, h0, h1, h2, h3, h4, h5, h6]
  · obtain ⟨h0, h1, h2, h3, h4, h5, h6⟩ := hagree c
    rw [Cert.ReferenceIdeal.RefValue.nodes_eq, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
